-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S_ : Shape := ⟨0, ![]⟩

class Facts : Prop where
  bcast_S_S8x256x512 : S_.BroadcastsInDim S8x256x512 (![] : Fin 0 → Fin S8x256x512.rank)
  reducesTo_S8x256x512_S_d0_1_2 : S8x256x512.ReducesTo [0, 1, 2] S_
  h_S_ : 0 < S_.numel
  bcast_S_S8x64x512 : S_.BroadcastsInDim S8x64x512 (![] : Fin 0 → Fin S8x64x512.rank)
  reducesTo_S8x64x512_S_d0_1_2 : S8x64x512.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S8x256x512 .f32) (main_arg1 : FVec F S8x64x512 .f32) (main_arg2 : FVec F S1024x1024 .f32) (main_arg3 : FVec F S1024 .f32) : IVec S_ 1 :=
  let main_v0 : FVec F S8x256x512 .f32 := Host.absf main_arg0
  let main_cst : FVec F S_ .f32 := constant S_ .f32 0x7F800000#32
  let main_v1 : FVec F S8x256x512 .f32 := broadcastInDim S8x256x512 ![] bcast_S_S8x256x512 main_cst
  let main_v2 : IVec S8x256x512 1 := cmpf .olt main_v0 main_v1
  let main_c : IVec S_ 1 := constantI S_ 1 1#1
  let main_v3 : IVec S_ 1 := (fun x v => Host.reduce IntOp.andi x v reducesTo_S8x256x512_S_d0_1_2 h_S_) main_v2 main_c
  let main_v4 : FVec F S8x64x512 .f32 := Host.absf main_arg1
  let main_cst_0 : FVec F S_ .f32 := constant S_ .f32 0x7F800000#32
  let main_v5 : FVec F S8x64x512 .f32 := broadcastInDim S8x64x512 ![] bcast_S_S8x64x512 main_cst_0
  let main_v6 : IVec S8x64x512 1 := cmpf .olt main_v4 main_v5
  let main_c_1 : IVec S_ 1 := constantI S_ 1 1#1
  let main_v7 : IVec S_ 1 := (fun x v => Host.reduce IntOp.andi x v reducesTo_S8x64x512_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S8x256x64x1024 : Shape := ⟨4, ![8, 256, 64, 1024]⟩
abbrev S1x32x512 : Shape := ⟨3, ![1, 32, 512]⟩
abbrev S1x64x512 : Shape := ⟨3, ![1, 64, 512]⟩
abbrev S1x32x64x1024 : Shape := ⟨4, ![1, 32, 64, 1024]⟩
abbrev S32x512 : Shape := ⟨2, ![32, 512]⟩
abbrev S64x512 : Shape := ⟨2, ![64, 512]⟩
abbrev S32x1024 : Shape := ⟨2, ![32, 1024]⟩
abbrev S64x1024 : Shape := ⟨2, ![64, 1024]⟩
abbrev S32x1x1024 : Shape := ⟨3, ![32, 1, 1024]⟩
abbrev S1x64x1024 : Shape := ⟨3, ![1, 64, 1024]⟩
abbrev S32x64x1024 : Shape := ⟨3, ![32, 64, 1024]⟩

abbrev nBuf : Space → Nat
  | .hbm => 10
  | .vmem => 9
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512x1024, .bf16⟩
  | .hbm, ⟨6, _⟩ => ⟨S512x1024, .f32⟩
  | .hbm, ⟨7, _⟩ => ⟨S512x1024, .bf16⟩
  | .hbm, ⟨8, _⟩ => ⟨S1x1024, .f32⟩
  | .hbm, ⟨9, _⟩ => ⟨S8x256x64x1024, .f32⟩
  | .local _ .vmem, ⟨0, _⟩ => ⟨S1x32x512, .f32⟩
  | .local _ .vmem, ⟨1, _⟩ => ⟨S1x32x512, .f32⟩
  | .local _ .vmem, ⟨2, _⟩ => ⟨S1x64x512, .f32⟩
  | .local _ .vmem, ⟨3, _⟩ => ⟨S1x64x512, .f32⟩
  | .local _ .vmem, ⟨4, _⟩ => ⟨S512x1024, .bf16⟩
  | .local _ .vmem, ⟨5, _⟩ => ⟨S512x1024, .bf16⟩
  | .local _ .vmem, ⟨6, _⟩ => ⟨S1x1024, .f32⟩
  | .local _ .vmem, ⟨7, _⟩ => ⟨S1x32x64x1024, .f32⟩
  | .local _ .vmem, ⟨8, _⟩ => ⟨S1x32x64x1024, .f32⟩
  | _, _ => ⟨S8x256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![8, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x32x64x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  slices_S1024x1024_S512x1024_0_0 : S1024x1024.Slices ![0, 0] S512x1024
  bitsLt_bf16_f32 : FTy.bits .bf16 < FTy.bits .f32
  slices_S1024x1024_S512x1024_512_0 : S1024x1024.Slices ![512, 0] S512x1024
  shapeCasts_S1024_S1x1024 : S1024.ShapeCasts S1x1024
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S64x1024 : S1x1024.Broadcasts S64x1024
  shapeCasts_S32x1024_S32x1x1024 : S32x1024.ShapeCasts S32x1x1024
  shapeCasts_S64x1024_S1x64x1024 : S64x1024.ShapeCasts S1x64x1024
  broadcasts_S32x1x1024_S32x64x1024 : S32x1x1024.Broadcasts S32x64x1024
  broadcasts_S1x64x1024_S32x64x1024 : S1x64x1024.Broadcasts S32x64x1024
  inb_S1x32x64x1024_S1x32x64x1024_0_0_0_0 : ∀ a, (![0, 0, 0, 0] : Fin 4 → Nat) a + S1x32x64x1024.size a ≤ S1x32x64x1024.size a
  h_S1x32x64x1024 : 0 < S1x32x64x1024.numel
  shapeCasts_S1x32x64x1024_S32x64x1024 : S1x32x64x1024.ShapeCasts S32x64x1024
  shapeCasts_S32x64x1024_S1x32x64x1024 : S32x64x1024.ShapeCasts S1x32x64x1024
  dot_S32x512_S512x1024_S32x1024_1_0_0_1_n_n_wf : DotDims.WF S32x512 S512x1024 S32x1024 [1] [0] [0] [1] [] []
  dot_S64x512_S512x1024_S64x1024_1_0_0_1_n_n_wf : DotDims.WF S64x512 S512x1024 S64x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S8x256x512.size a
  hwx0_0 : ∀ i : grid0.Coords, EltTy.bits .f32 = 32 ∨ (Rect.block (s := S8x256x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S8x64x512.size a
  hwx0_1 : ∀ i : grid0.Coords, EltTy.bits .f32 = 32 ∨ (Rect.block (s := S8x64x512) S1x64x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S512x1024.size a
  hwx0_2 : ∀ i : grid0.Coords, EltTy.bits .bf16 = 32 ∨ (Rect.block (s := S512x1024) S512x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x1024.size a ≤ S512x1024.size a
  hwx0_3 : ∀ i : grid0.Coords, EltTy.bits .bf16 = 32 ∨ (Rect.block (s := S512x1024) S512x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x32x64x1024.size a ≤ S8x256x64x1024.size a
  hwx0_5 : ∀ i : grid0.Coords, EltTy.bits .f32 = 32 ∨ (Rect.block (s := S8x256x64x1024) S1x32x64x1024.size (cc0_transform_5 i) (hinb0_5 i)).WholeWords (EltTy.packing .f32)

variable [Facts₀]

def dot_S32x512_S512x1024_S32x1024_1_0_0_1_n_n : DotDims S32x512 S512x1024 S32x1024 where
  lhsContracting := [1]
  rhsContracting := [0]
  lhsNonContracting := [0]
  rhsNonContracting := [1]
  lhsBatch := []
  rhsBatch := []
  wf := dot_S32x512_S512x1024_S32x1024_1_0_0_1_n_n_wf
def dot_S64x512_S512x1024_S64x1024_1_0_0_1_n_n : DotDims S64x512 S512x1024 S64x1024 where
  lhsContracting := [1]
  rhsContracting := [0]
  lhsNonContracting := [0]
  rhsNonContracting := [1]
  lhsBatch := []
  rhsBatch := []
  wf := dot_S64x512_S512x1024_S64x1024_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x32x64x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S8x256x512 : Shape := ⟨3, ![8, 256, 512]⟩
abbrev S8x64x512 : Shape := ⟨3, ![8, 64, 512]⟩
abbrev S1024x1024 : Shape := ⟨2, ![1024, 1024]⟩
abbrev S1024 : Shape := ⟨1, ![1024]⟩
abbrev S512x1024 : Shape := ⟨2, ![512, 1024]⟩
abbrev S8x256x1024 : Shape := ⟨3, ![8, 256, 1024]⟩
abbrev S8x64x1024 : Shape := ⟨3, ![8, 64, 1024]⟩
abbrev S8x256x1x1024 : Shape := ⟨4, ![8, 256, 1, 1024]⟩
abbrev S8x1x64x1024 : Shape := ⟨4, ![8, 1, 64, 1024]⟩
abbrev S8x256x64x1024 : Shape := ⟨4, ![8, 256, 64, 1024]⟩
abbrev S1x1x1x1024 : Shape := ⟨4, ![1, 1, 1, 1024]⟩

abbrev nBuf : Space → Nat
  | .hbm => 16
  | .vmem => 0
  | .smem => 0
  | _ => 0

abbrev bufTy : (tb : Table) → Fin (tcTables nBuf tb) → BufTy
  | .hbm, ⟨0, _⟩ => ⟨S8x256x512, .f32⟩
  | .hbm, ⟨1, _⟩ => ⟨S8x64x512, .f32⟩
  | .hbm, ⟨2, _⟩ => ⟨S1024x1024, .f32⟩
  | .hbm, ⟨3, _⟩ => ⟨S1024, .f32⟩
  | .hbm, ⟨4, _⟩ => ⟨S512x1024, .f32⟩
  | .hbm, ⟨5, _⟩ => ⟨S512x1024, .f32⟩
  | .hbm, ⟨6, _⟩ => ⟨S8x256x1024, .f32⟩
  | .hbm, ⟨7, _⟩ => ⟨S8x64x1024, .f32⟩
  | .hbm, ⟨8, _⟩ => ⟨S8x256x1x1024, .f32⟩
  | .hbm, ⟨9, _⟩ => ⟨S8x1x64x1024, .f32⟩
  | .hbm, ⟨10, _⟩ => ⟨S8x256x64x1024, .f32⟩
  | .hbm, ⟨11, _⟩ => ⟨S8x256x64x1024, .f32⟩
  | .hbm, ⟨12, _⟩ => ⟨S8x256x64x1024, .f32⟩
  | .hbm, ⟨13, _⟩ => ⟨S1x1x1x1024, .f32⟩
  | .hbm, ⟨14, _⟩ => ⟨S8x256x64x1024, .f32⟩
  | .hbm, ⟨15, _⟩ => ⟨S8x256x64x1024, .f32⟩
  | _, _ => ⟨S8x256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]

class Facts₀ : Prop where
  slices_S1024x1024_S512x1024_0_0 : S1024x1024.Slices ![0, 0] S512x1024
  slices_S1024x1024_S512x1024_512_0 : S1024x1024.Slices ![512, 0] S512x1024
  bcast_S8x256x1024_S8x256x1x1024_0_1_3 : S8x256x1024.BroadcastsInDim S8x256x1x1024 (![0, 1, 3] : Fin 3 → Fin S8x256x1x1024.rank)
  bcast_S8x64x1024_S8x1x64x1024_0_2_3 : S8x64x1024.BroadcastsInDim S8x1x64x1024 (![0, 2, 3] : Fin 3 → Fin S8x1x64x1024.rank)
  bcast_S8x256x1x1024_S8x256x64x1024_0_1_2_3 : S8x256x1x1024.BroadcastsInDim S8x256x64x1024 (![0, 1, 2, 3] : Fin 4 → Fin S8x256x64x1024.rank)
  bcast_S8x1x64x1024_S8x256x64x1024_0_1_2_3 : S8x1x64x1024.BroadcastsInDim S8x256x64x1024 (![0, 1, 2, 3] : Fin 4 → Fin S8x256x64x1024.rank)
  bcast_S1024_S1x1x1x1024_3 : S1024.BroadcastsInDim S1x1x1x1024 (![3] : Fin 1 → Fin S1x1x1x1024.rank)
  bcast_S1x1x1x1024_S8x256x64x1024_0_1_2_3 : S1x1x1x1024.BroadcastsInDim S8x256x64x1024 (![0, 1, 2, 3] : Fin 4 → Fin S8x256x64x1024.rank)
  dot_S8x256x512_S512x1024_S8x256x1024_2_0_01_1_n_n_wf : DotDims.WF S8x256x512 S512x1024 S8x256x1024 [2] [0] [0, 1] [1] [] []
  dot_S8x64x512_S512x1024_S8x64x1024_2_0_01_1_n_n_wf : DotDims.WF S8x64x512 S512x1024 S8x64x1024 [2] [0] [0, 1] [1] [] []

variable [Facts₀]

def dot_S8x256x512_S512x1024_S8x256x1024_2_0_01_1_n_n : DotDims S8x256x512 S512x1024 S8x256x1024 where
  lhsContracting := [2]
  rhsContracting := [0]
  lhsNonContracting := [0, 1]
  rhsNonContracting := [1]
  lhsBatch := []
  rhsBatch := []
  wf := dot_S8x256x512_S512x1024_S8x256x1024_2_0_01_1_n_n_wf
def dot_S8x64x512_S512x1024_S8x64x1024_2_0_01_1_n_n : DotDims S8x64x512 S512x1024 S8x64x1024 where
  lhsContracting := [2]
  rhsContracting := [0]
  lhsNonContracting := [0, 1]
  rhsNonContracting := [1]
  lhsBatch := []
  rhsBatch := []
  wf := dot_S8x64x512_S512x1024_S8x64x1024_2_0_01_1_n_n_wf

class Facts : Prop extends Facts₀ where

variable [Facts]
-- ==== Proof.LibGridSpread.lean ====
/-
  Three layout operations read at an index given by coordinates, for any extents: what is needed to read
  "a[:, None, :] + l[None, :, :]" — a row-indexed matrix and a column-indexed matrix spread over a two-dimensional grid
  with a shared trailing axis — one entry at a time.

  * `shapeCast_ab_a1b_apply`  : an [a, b] array cast to [a, 1, b] reads, at (i, z, j), the operand at (i, j);
  * `broadcastTo_a1c_abc_apply` : an [a, 1, c] array spread to [a, b, c] reads, at (i, j, k), the operand at (i, 0, k);
  * `broadcastTo_1bc_abc_apply` : a [1, b, c] array spread to [a, b, c] reads, at (i, j, k), the operand at (0, j, k).

  Each is the library's general read-at-an-index lemma for the operation with the per-axis arithmetic discharged for
  indices written by coordinates.
-/
import Idealize.ShloMosaic.Lib.ValueLayout

namespace Cert.GridSpread

open Idealize.ShloMosaic Idealize.ShloMosaic.ValueIdx

variable {α : Type}

/-- An `[a, b]` array cast to `[a, 1, b]` reads, at `(i, z, j)`, the operand at `(i, j)`, whatever the unit coordinate `z`:
    the two indices have the same row-major position. -/
theorem shapeCast_ab_a1b_apply {a b : ℕ} (x : (⟨2, ![a, b]⟩ : Shape).Idx → α)
    (h : (⟨2, ![a, b]⟩ : Shape).ShapeCasts ⟨3, ![a, 1, b]⟩) (i : Fin a) (z : Fin 1) (j : Fin b) :
    shapeCast ⟨3, ![a, 1, b]⟩ x h (ix3 i z j) = x (ix2 i j) :=
  shapeCast_apply x h _ _ (by
    have hz : z.val = 0 := by omega
    rw [Shape.rowMajor_val_three, Shape.rowMajor_val_two]
    show i.val * b + j.val = (i.val * 1 + z.val) * b + j.val
    rw [hz, Nat.mul_one, Nat.add_zero])

/-- An `[a, 1, c]` array spread along its unit middle axis to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- A `[1, b, c]` array spread along its unit leading axis to `[a, b, c]` reads, at `(i, j, k)`, the operand at `(0, j, k)`. -/
theorem broadcastTo_1bc_abc_apply {a b c : ℕ} (v : (⟨3, ![1, b, c]⟩ : Shape).Idx → α)
    (h : (⟨3, ![1, b, c]⟩ : Shape).Broadcasts ⟨3, ![a, b, c]⟩) (i : Fin a) (j : Fin b) (k : Fin c) :
    broadcastTo ⟨3, ![a, b, c]⟩ v h (ix3 i j k) = v (ix3 (0 : Fin 1) j k) := by
  refine broadcastTo_apply v h (ix3 i j k) (ix3 (0 : Fin 1) j k) fun ax => ?_
  match ax with
  | ⟨0, _⟩ => rfl
  | ⟨1, _⟩ =>
    show j.val = if b = 1 then 0 else j.val
    split
    · have := j.isLt; omega
    · rfl
  | ⟨2, _⟩ =>
    show k.val = if c = 1 then 0 else k.val
    split
    · have := k.isLt; omega
    · rfl

end Cert.GridSpread
-- ==== Proof.BodyJoint.lean ====
/-
  What the kernel body stores, one entry at a time.

  At a grid point the body holds a [1, 32, 512] block of the audio array, a [1, 64, 512] block of the label array, the two
  [512, 1024] halves of the weight and the bias as a [1, 1024] row.  It multiplies the audio block by the upper half and
  the label block by the lower half (each product into a zero accumulator; the rounding of the operands to a shorter
  format is the identity on extended reals), adds the bias row to every row of the label product, spreads the audio
  product along a new middle axis of extent 64 and the label-plus-bias product along a new leading axis of extent 32,
  adds the two and stores the result as a [1, 32, 64, 1024] block.  So the stored entry at (0, r, u, f) is

      (∑ k < 512, audio[0, r, k] · upper[k, f])  +  ( (∑ k < 512, label[0, u, k] · lower[k, f])  +  bias[0, f] ).
-/
import proofs.«171825_j11003706212671_2_alg».proof.Proof.Gen.KernelIdeal.Skeleton
import proofs.«171825_j11003706212671_2_alg».proof.Proof.LibGridSpread
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Body

open Cert.KernelIdeal Cert.KernelIdeal.Gen Idealize.ShloMosaic Idealize.ShloMosaic.ValueIdx Cert.GridSpread

/-! ### The audio product: which entries the k-th term of the contraction reads -/

theorem audio_lhs_0 (i : S32x1024.Idx) (q : dot_S32x512_S512x1024_S32x1024_1_0_0_1_n_n.contr.Idx) :
    (dot_S32x512_S512x1024_S32x1024_1_0_0_1_n_n.lhsIdx i q 0).val = (i 0).val := by
  unfold DotDims.lhsIdx
  rw [dif_neg (show ¬(0 : Fin S32x512.rank) ∈ dot_S32x512_S512x1024_S32x1024_1_0_0_1_n_n.lhsBatch by decide), dif_pos (show (0 : Fin S32x512.rank) ∈ dot_S32x512_S512x1024_S32x1024_1_0_0_1_n_n.lhsNonContracting by decide)]
  rfl
theorem audio_lhs_1 (i : S32x1024.Idx) (q : dot_S32x512_S512x1024_S32x1024_1_0_0_1_n_n.contr.Idx) :
    (dot_S32x512_S512x1024_S32x1024_1_0_0_1_n_n.lhsIdx i q 1).val = (q ⟨0, by decide⟩).val :=
  dot_S32x512_S512x1024_S32x1024_1_0_0_1_n_n.lhsIdx_val_of_single rfl i q
theorem audio_rhs_0 (i : S32x1024.Idx) (q : dot_S32x512_S512x1024_S32x1024_1_0_0_1_n_n.contr.Idx) :
    (dot_S32x512_S512x1024_S32x1024_1_0_0_1_n_n.rhsIdx i q 0).val = (q ⟨0, by decide⟩).val :=
  dot_S32x512_S512x1024_S32x1024_1_0_0_1_n_n.rhsIdx_val_of_single rfl i q
theorem audio_rhs_1 (i : S32x1024.Idx) (q : dot_S32x512_S512x1024_S32x1024_1_0_0_1_n_n.contr.Idx) :
    (dot_S32x512_S512x1024_S32x1024_1_0_0_1_n_n.rhsIdx i q 1).val = (i 1).val := by
  unfold DotDims.rhsIdx
  rw [dif_neg (show ¬(1 : Fin S512x1024.rank) ∈ dot_S32x512_S512x1024_S32x1024_1_0_0_1_n_n.rhsBatch by decide), dif_pos (show (1 : Fin S512x1024.rank) ∈ dot_S32x512_S512x1024_S32x1024_1_0_0_1_n_n.rhsNonContracting by decide)]
  rfl

/-- The audio block's [32, 512] × [512, 1024] product into a zero accumulator, at row `r` and column `f`: the sum over
    the 512 features of the row's entry times the weight block's entry. -/
theorem audio_dot (a : FVec Ideal S32x512 .bf16) (w : FVec Ideal S512x1024 .bf16) (r : Fin 32) (f : Fin 1024) :
    matmul dot_S32x512_S512x1024_S32x1024_1_0_0_1_n_n none a w (constant (F := Ideal) S32x1024 .f32 0x00000000#32) (ix2 r f)
      = ∑ k : Fin 512, a (ix2 r k) * w (ix2 k f) := by
  simp only [matmul]
  rw [Ideal.matmul_constant_zero_apply, ← Equiv.sum_comp (contrEquiv1 dot_S32x512_S512x1024_S32x1024_1_0_0_1_n_n 512 rfl rfl).symm]
  refine Finset.sum_congr rfl fun k _ => ?_
  have hk := contrEquiv1_symm_val dot_S32x512_S512x1024_S32x1024_1_0_0_1_n_n 512 rfl rfl k
  have el : dot_S32x512_S512x1024_S32x1024_1_0_0_1_n_n.lhsIdx (ix2 r f) ((contrEquiv1 dot_S32x512_S512x1024_S32x1024_1_0_0_1_n_n 512 rfl rfl).symm k) = ix2 r k := funext fun ax => Fin.ext (by
    match ax with
    | ⟨0, _⟩ => exact audio_lhs_0 _ _
    | ⟨1, _⟩ => exact (audio_lhs_1 _ _).trans hk)
  have er : dot_S32x512_S512x1024_S32x1024_1_0_0_1_n_n.rhsIdx (ix2 r f) ((contrEquiv1 dot_S32x512_S512x1024_S32x1024_1_0_0_1_n_n 512 rfl rfl).symm k) = ix2 k f := funext fun ax => Fin.ext (by
    match ax with
    | ⟨0, _⟩ => exact (audio_rhs_0 _ _).trans hk
    | ⟨1, _⟩ => exact audio_rhs_1 _ _)
  rw [el, er]

/-! ### The label product: which entries the k-th term of the contraction reads -/

theorem label_lhs_0 (i : S64x1024.Idx) (q : dot_S64x512_S512x1024_S64x1024_1_0_0_1_n_n.contr.Idx) :
    (dot_S64x512_S512x1024_S64x1024_1_0_0_1_n_n.lhsIdx i q 0).val = (i 0).val := by
  unfold DotDims.lhsIdx
  rw [dif_neg (show ¬(0 : Fin S64x512.rank) ∈ dot_S64x512_S512x1024_S64x1024_1_0_0_1_n_n.lhsBatch by decide), dif_pos (show (0 : Fin S64x512.rank) ∈ dot_S64x512_S512x1024_S64x1024_1_0_0_1_n_n.lhsNonContracting by decide)]
  rfl
theorem label_lhs_1 (i : S64x1024.Idx) (q : dot_S64x512_S512x1024_S64x1024_1_0_0_1_n_n.contr.Idx) :
    (dot_S64x512_S512x1024_S64x1024_1_0_0_1_n_n.lhsIdx i q 1).val = (q ⟨0, by decide⟩).val :=
  dot_S64x512_S512x1024_S64x1024_1_0_0_1_n_n.lhsIdx_val_of_single rfl i q
theorem label_rhs_0 (i : S64x1024.Idx) (q : dot_S64x512_S512x1024_S64x1024_1_0_0_1_n_n.contr.Idx) :
    (dot_S64x512_S512x1024_S64x1024_1_0_0_1_n_n.rhsIdx i q 0).val = (q ⟨0, by decide⟩).val :=
  dot_S64x512_S512x1024_S64x1024_1_0_0_1_n_n.rhsIdx_val_of_single rfl i q
theorem label_rhs_1 (i : S64x1024.Idx) (q : dot_S64x512_S512x1024_S64x1024_1_0_0_1_n_n.contr.Idx) :
    (dot_S64x512_S512x1024_S64x1024_1_0_0_1_n_n.rhsIdx i q 1).val = (i 1).val := by
  unfold DotDims.rhsIdx
  rw [dif_neg (show ¬(1 : Fin S512x1024.rank) ∈ dot_S64x512_S512x1024_S64x1024_1_0_0_1_n_n.rhsBatch by decide), dif_pos (show (1 : Fin S512x1024.rank) ∈ dot_S64x512_S512x1024_S64x1024_1_0_0_1_n_n.rhsNonContracting by decide)]
  rfl

/-- The label block's [64, 512] × [512, 1024] product into a zero accumulator, at row `u` and column `f`: the sum over
    the 512 features of the row's entry times the weight block's entry. -/
theorem label_dot (a : FVec Ideal S64x512 .bf16) (w : FVec Ideal S512x1024 .bf16) (u : Fin 64) (f : Fin 1024) :
    matmul dot_S64x512_S512x1024_S64x1024_1_0_0_1_n_n none a w (constant (F := Ideal) S64x1024 .f32 0x00000000#32) (ix2 u f)
      = ∑ k : Fin 512, a (ix2 u k) * w (ix2 k f) := by
  simp only [matmul]
  rw [Ideal.matmul_constant_zero_apply, ← Equiv.sum_comp (contrEquiv1 dot_S64x512_S512x1024_S64x1024_1_0_0_1_n_n 512 rfl rfl).symm]
  refine Finset.sum_congr rfl fun k _ => ?_
  have hk := contrEquiv1_symm_val dot_S64x512_S512x1024_S64x1024_1_0_0_1_n_n 512 rfl rfl k
  have el : dot_S64x512_S512x1024_S64x1024_1_0_0_1_n_n.lhsIdx (ix2 u f) ((contrEquiv1 dot_S64x512_S512x1024_S64x1024_1_0_0_1_n_n 512 rfl rfl).symm k) = ix2 u k := funext fun ax => Fin.ext (by
    match ax with
    | ⟨0, _⟩ => exact label_lhs_0 _ _
    | ⟨1, _⟩ => exact (label_lhs_1 _ _).trans hk)
  have er : dot_S64x512_S512x1024_S64x1024_1_0_0_1_n_n.rhsIdx (ix2 u f) ((contrEquiv1 dot_S64x512_S512x1024_S64x1024_1_0_0_1_n_n 512 rfl rfl).symm k) = ix2 k f := funext fun ax => Fin.ext (by
    match ax with
    | ⟨0, _⟩ => exact (label_rhs_0 _ _).trans hk
    | ⟨1, _⟩ => exact label_rhs_1 _ _)
  rw [el, er]

/-! ### The stored block at an index -/

/-- The body's stored value at `(z, r, u, f)` of its [1, 32, 64, 1024] block, from the five loaded blocks. -/
theorem pay_at (x0 : Vec Ideal S1x32x512 .f32) (x1 : Vec Ideal S1x64x512 .f32) (x2 x3 : Vec Ideal S512x1024 .bf16)
    (x4 : Vec Ideal S1x1024 .f32) (z : Fin 1) (r : Fin 32) (u : Fin 64) (f : Fin 1024) :
    k0_pay1 (F := Ideal) x0 x1 x2 x3 x4 (ix4 z r u f)
      = (∑ k : Fin 512, x0 (ix3 (0 : Fin 1) r k) * x2 (ix2 k f))
        + ((∑ k : Fin 512, x1 (ix3 (0 : Fin 1) u k) * x3 (ix2 k f)) + x4 (ix2 (0 : Fin 1) f)) := by
  unfold k0_pay1
  rw [shapeCast_abc_1abc_apply, addf_apply, broadcastTo_a1c_abc_apply, broadcastTo_1bc_abc_apply,
    shapeCast_ab_a1b_apply, shapeCast_ab_1ab_apply, addf_apply, broadcastTo_1b_ab_apply, audio_dot, label_dot]
  simp only [truncf_apply, shapeCast_1ab_ab_apply, shapeCast_self]

end Cert.KernelIdeal.Body

end
-- ==== Proof.JointSpec.lean ====
/-
  The joint network's output as ONE function of its four argument arrays, index by index, on the extended reals.

  With audio  x : [8, 256, 512],  label  y : [8, 64, 512],  weight  w : [1024, 1024]  (rows 0..511 act on the audio
  features, rows 512..1023 on the label features) and bias  β : [1024], the entry at  (b, t, u, f)  is

      (∑ k < 512, x[b, t, k] · w[k, f])  +  ( (∑ k < 512, y[b, u, k] · w[512 + k, f])  +  β[f] ).

  The first sum depends on (b, t, f) only and the second on (b, u, f) only: the output is the two projections
  spread over the (t, u) grid and added.  The grouping written above is the one in which the bias joins the label
  projection before the audio projection is added; the other grouping, (audio + label) + β, is the same extended
  real, because addition on the extended reals is associative (no finiteness is needed for that).
-/
import Idealize.ShloMosaic.PureOps.Ideal
import Idealize.ShloMosaic.Lib.ValueIdx

noncomputable section

namespace Cert.Joint

open Idealize.ShloMosaic Idealize.ShloMosaic.ValueIdx

/-- Row `k` of the weight's audio half (rows 0..511). -/
abbrev rowA (k : Fin 512) : Fin 1024 := ⟨k.val, by have := k.isLt; omega⟩

/-- Row `k` of the weight's label half (rows 512..1023). -/
abbrev rowL (k : Fin 512) : Fin 1024 := ⟨512 + k.val, by have := k.isLt; omega⟩

/-- The audio projection at batch `b`, frame `t`, output feature `f`: the audio row against the weight's upper half. -/
def audioProj (x : (⟨3, ![8, 256, 512]⟩ : Shape).Idx → EReal) (w : (⟨2, ![1024, 1024]⟩ : Shape).Idx → EReal)
    (b : Fin 8) (t : Fin 256) (f : Fin 1024) : EReal :=
  ∑ k : Fin 512, x (ix3 b t k) * w (ix2 (rowA k) f)

/-- The label projection at batch `b`, label position `u`, output feature `f`: the label row against the weight's lower half. -/
def labelProj (y : (⟨3, ![8, 64, 512]⟩ : Shape).Idx → EReal) (w : (⟨2, ![1024, 1024]⟩ : Shape).Idx → EReal)
    (b : Fin 8) (u : Fin 64) (f : Fin 1024) : EReal :=
  ∑ k : Fin 512, y (ix3 b u k) * w (ix2 (rowL k) f)

/-- The joint output at coordinates (b, t, u, f): audio projection + (label projection + bias). -/
def jointAt (x : (⟨3, ![8, 256, 512]⟩ : Shape).Idx → EReal) (y : (⟨3, ![8, 64, 512]⟩ : Shape).Idx → EReal)
    (w : (⟨2, ![1024, 1024]⟩ : Shape).Idx → EReal) (β : (⟨1, ![1024]⟩ : Shape).Idx → EReal)
    (b : Fin 8) (t : Fin 256) (u : Fin 64) (f : Fin 1024) : EReal :=
  audioProj x w b t f + (labelProj y w b u f + β (ix1 f))

/-- The joint output array. -/
def joint (x : (⟨3, ![8, 256, 512]⟩ : Shape).Idx → EReal) (y : (⟨3, ![8, 64, 512]⟩ : Shape).Idx → EReal)
    (w : (⟨2, ![1024, 1024]⟩ : Shape).Idx → EReal) (β : (⟨1, ![1024]⟩ : Shape).Idx → EReal) :
    (⟨4, ![8, 256, 64, 1024]⟩ : Shape).Idx → EReal :=
  fun i => jointAt x y w β (i 0) (i 1) (i 2) (i 3)

theorem joint_ix4 (x : (⟨3, ![8, 256, 512]⟩ : Shape).Idx → EReal) (y : (⟨3, ![8, 64, 512]⟩ : Shape).Idx → EReal)
    (w : (⟨2, ![1024, 1024]⟩ : Shape).Idx → EReal) (β : (⟨1, ![1024]⟩ : Shape).Idx → EReal)
    (b : Fin 8) (t : Fin 256) (u : Fin 64) (f : Fin 1024) :
    joint x y w β (ix4 b t u f) = jointAt x y w β b t u f := rfl

/-- The other grouping of the three summands is the same extended real: addition is associative. -/
theorem jointAt_regroup (x : (⟨3, ![8, 256, 512]⟩ : Shape).Idx → EReal) (y : (⟨3, ![8, 64, 512]⟩ : Shape).Idx → EReal)
    (w : (⟨2, ![1024, 1024]⟩ : Shape).Idx → EReal) (β : (⟨1, ![1024]⟩ : Shape).Idx → EReal)
    (b : Fin 8) (t : Fin 256) (u : Fin 64) (f : Fin 1024) :
    (audioProj x w b t f + labelProj y w b u f) + β (ix1 f) = jointAt x y w β b t u f :=
  add_assoc _ _ _

end Cert.Joint

end
-- ==== Proof.KernelJoint.lean ====
/-
  The kernel's result array is the joint function of its arguments.

  The grid has 8 × 8 points; point (b, s) works on batch b and on frames 32·s … 32·s + 31.  There it reads the
  [1, 32, 512] block (b, s, 0) of the audio array, the [1, 64, 512] block (b, 0, 0) of the label array, the whole upper and
  lower halves of the weight (written before the launch as slices of the weight argument; rounding them to a shorter
  format changes nothing on extended reals) and the bias as one row (the bias argument with a unit axis in front),
  and writes back the [1, 32, 64, 1024] block (b, s, 0, 0) of the result.  What it writes back is the body's stored value
  of those blocks, which entry by entry is the specification's joint function at the entry's place in the result
  array; the 64 blocks tile the result array, so after the run the array is that function.
-/
import proofs.«171825_j11003706212671_2_alg».proof.Proof.Gen.KernelIdeal.Value
import proofs.«171825_j11003706212671_2_alg».proof.Proof.BodyJoint
import proofs.«171825_j11003706212671_2_alg».proof.Proof.JointSpec
import Idealize.ShloMosaic.Lib.StableHlo.Run
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Hand

open Cert.KernelIdeal Cert.KernelIdeal.Gen Cert.KernelIdeal.Value Cert.KernelIdeal.Body
open Idealize.ShloMosaic.ValueIdx Idealize.ShloMosaic.StableHlo Cert.Joint

variable (m : (ℓ : Loc nD τ sig) → Buf (Elt Ideal) ℓ) (ρ : Dev nD → PrngReg)

/-! ## What the launch finds in the arrays the host operations wrote -/

/-- The upper-half window's array: the weight's rows 0..511. -/
theorem upper_eq (c : Dev nD) : (V m c main_v1 : S512x1024.Idx → EReal)
    = truncf (F := Ideal) .bf16 (extractStridedSlice S512x1024 ![0, 0] (m ((c : Thread nD τ).loc main_arg2)) slices_S1024x1024_S512x1024_0_0) bitsLt_bf16_f32 := by
  dsimp only [Gen.V, Gen.hostOps0]; after_results

/-- The lower-half window's array: the weight's rows 512..1023. -/
theorem lower_eq (c : Dev nD) : (V m c main_v3 : S512x1024.Idx → EReal)
    = truncf (F := Ideal) .bf16 (extractStridedSlice S512x1024 ![512, 0] (m ((c : Thread nD τ).loc main_arg2)) slices_S1024x1024_S512x1024_512_0) bitsLt_bf16_f32 := by
  dsimp only [Gen.V, Gen.hostOps0]; after_results

/-- The bias window's array: the bias with a unit axis in front. -/
theorem biasRow_eq (c : Dev nD) : (V m c main_v4 : S1x1024.Idx → EReal)
    = shapeCast S1x1024 (m ((c : Thread nD τ).loc main_arg3)) shapeCasts_S1024_S1x1024 := by
  dsimp only [Gen.V, Gen.hostOps0]; after_results; rfl

/-! ## The index maps over the 64 grid points -/

/-- Each input window's block indices in terms of the result window's, and the result window's in their ranges
    (decided over the grid). -/
theorem idx_facts : ∀ t : Fin cfg0.N,
    win0_0.index t (0 : Fin 3) = win0_5.index t (0 : Fin 4) ∧ win0_0.index t (1 : Fin 3) = win0_5.index t (1 : Fin 4)
    ∧ win0_0.index t (2 : Fin 3) = 0
    ∧ win0_1.index t (0 : Fin 3) = win0_5.index t (0 : Fin 4) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 4) ≤ 7 ∧ win0_5.index t (1 : Fin 4) ≤ 7
    ∧ win0_5.index t (2 : Fin 4) = 0 ∧ win0_5.index t (3 : Fin 4) = 0 :=
  (by decide +kernel : ∀ t : Fin grid0.N, _)

/-- Every (batch, frame-block) pair is some grid point's result block. -/
theorem idx_onto : ∀ (q0 : Fin 8) (q1 : Fin 8), ∃ t : Fin cfg0.N, win0_5.index t = ![q0.val, q1.val, 0, 0] :=
  (by decide +kernel : ∀ (q0 : Fin 8) (q1 : Fin 8), ∃ t : Fin grid0.N, win0_5.index t = ![q0.val, q1.val, 0, 0])

/-! ## Each input window's block at a point, read off the argument arrays -/

/-- The audio block at point `t`: batch `b`, frames `32·s …`, where (b, s) is the point's result block. -/
theorem audio_blk (c : Dev nD) (t : Fin cfg0.N) (x : S1x32x512.Idx) (k : S8x256x512.Idx)
    (hk0 : (k 0).val = win0_5.index t (0 : Fin 4) + (x 0).val) (hk1 : (k 1).val = win0_5.index t (1 : Fin 4) * 32 + (x 1).val)
    (hk2 : (k 2).val = (x 2).val) :
    (iblk m c 0 t : Vec Ideal S1x32x512 .f32) x = (m ((c : Thread nD τ).loc main_arg0) : S8x256x512.Idx → EReal) k := by
  obtain ⟨e0, e1, e2, -⟩ := idx_facts t
  unfold iblk
  rw [View.read_apply]
  show V m c main_arg0 _ = m (c.tc.loc main_arg0) _
  rw [V_main_arg0]
  congr 1
  funext a
  apply Fin.ext
  match a with
  | ⟨0, _⟩ => show win0_0.index t (0 : Fin 3) * 1 + 1 * (x 0).val = (k 0).val; omega
  | ⟨1, _⟩ => show win0_0.index t (1 : Fin 3) * 32 + 1 * (x 1).val = (k 1).val; omega
  | ⟨2, _⟩ => show win0_0.index t (2 : Fin 3) * 512 + 1 * (x 2).val = (k 2).val; omega

/-- The label block at point `t`: the whole [64, 512] slab of batch `b`. -/
theorem label_blk (c : Dev nD) (t : Fin cfg0.N) (x : S1x64x512.Idx) (k : S8x64x512.Idx)
    (hk0 : (k 0).val = win0_5.index t (0 : Fin 4) + (x 0).val) (hk1 : (k 1).val = (x 1).val) (hk2 : (k 2).val = (x 2).val) :
    (iblk m c 1 t : Vec Ideal S1x64x512 .f32) x = (m ((c : Thread nD τ).loc main_arg1) : S8x64x512.Idx → EReal) k := by
  obtain ⟨-, -, -, e0, e1, e2, -⟩ := idx_facts t
  unfold iblk
  rw [View.read_apply]
  show V m c main_arg1 _ = m (c.tc.loc main_arg1) _
  rw [V_main_arg1]
  congr 1
  funext a
  apply Fin.ext
  match a with
  | ⟨0, _⟩ => show win0_1.index t (0 : Fin 3) * 1 + 1 * (x 0).val = (k 0).val; omega
  | ⟨1, _⟩ => show win0_1.index t (1 : Fin 3) * 64 + 1 * (x 1).val = (k 1).val; omega
  | ⟨2, _⟩ => show win0_1.index t (2 : Fin 3) * 512 + 1 * (x 2).val = (k 2).val; omega

/-- The upper-half block at any point is the whole upper half: entry (k, f) is the weight's entry (k, f). -/
theorem upper_blk (c : Dev nD) (t : Fin cfg0.N) (k : Fin 512) (f : Fin 1024) :
    (iblk m c 2 t : Vec Ideal S512x1024 .bf16) (ix2 k f) = (m ((c : Thread nD τ).loc main_arg2) : S1024x1024.Idx → EReal) (ix2 (rowA k) f) := by
  obtain ⟨-, -, -, -, -, -, e0, e1, -⟩ := idx_facts t
  unfold iblk
  rw [View.read_apply]
  show (V m c main_v1 : S512x1024.Idx → EReal) _ = _
  rw [upper_eq, truncf_apply]
  refine extractStridedSlice_apply ![0, 0] _ slices_S1024x1024_S512x1024_0_0 _ (ix2 (rowA k) f) fun a => ?_
  match a with
  | ⟨0, _⟩ => show k.val = 0 + (win0_2.index t (0 : Fin 2) * 512 + 1 * k.val); omega
  | ⟨1, _⟩ => show f.val = 0 + (win0_2.index t (1 : Fin 2) * 1024 + 1 * f.val); omega

/-- The lower-half block at any point is the whole lower half: entry (k, f) is the weight's entry (512 + k, f). -/
theorem lower_blk (c : Dev nD) (t : Fin cfg0.N) (k : Fin 512) (f : Fin 1024) :
    (iblk m c 3 t : Vec Ideal S512x1024 .bf16) (ix2 k f) = (m ((c : Thread nD τ).loc main_arg2) : S1024x1024.Idx → EReal) (ix2 (rowL k) f) := by
  obtain ⟨-, -, -, -, -, -, -, -, e0, e1, -⟩ := idx_facts t
  unfold iblk
  rw [View.read_apply]
  show (V m c main_v3 : S512x1024.Idx → EReal) _ = _
  rw [lower_eq, truncf_apply]
  refine extractStridedSlice_apply ![512, 0] _ slices_S1024x1024_S512x1024_512_0 _ (ix2 (rowL k) f) fun a => ?_
  match a with
  | ⟨0, _⟩ => show 512 + k.val = 512 + (win0_3.index t (0 : Fin 2) * 512 + 1 * k.val); omega
  | ⟨1, _⟩ => show f.val = 0 + (win0_3.index t (1 : Fin 2) * 1024 + 1 * f.val); omega

/-- The bias block at any point is the bias as one row: entry (0, f) is the bias at f. -/
theorem bias_blk (c : Dev nD) (t : Fin cfg0.N) (f : Fin 1024) :
    (iblk m c 4 t : Vec Ideal S1x1024 .f32) (ix2 (0 : Fin 1) f) = (m ((c : Thread nD τ).loc main_arg3) : S1024.Idx → EReal) (ix1 f) := by
  obtain ⟨-, -, -, -, -, -, -, -, -, -, e0, e1, -⟩ := idx_facts t
  unfold iblk
  rw [View.read_apply]
  show (V m c main_v4 : S1x1024.Idx → EReal) _ = _
  rw [biasRow_eq]
  refine shapeCast_apply _ shapeCasts_S1024_S1x1024 _ (ix1 f) ?_
  rw [Shape.rowMajor_val_one, Shape.rowMajor_val_two]
  show f.val = (win0_4.index t (0 : Fin 2) * 1 + 1 * 0) * 1024 + (win0_4.index t (1 : Fin 2) * 1024 + 1 * f.val)
  omega

/-! ## One stored entry is one entry of the joint function -/

/-- Frame `32·s + r`: row `r` of frame block `s`. -/
abbrev frame (s : Fin 8) (r : Fin 32) : Fin 256 := ⟨s.val * 32 + r.val, by have := s.isLt; have := r.isLt; omega⟩

/-- If the five loaded blocks are: rows `32·s …` of batch `b` of the audio array `X`, the slab of batch `b` of the label array `Y`,
    the upper and lower halves of the weight `W` and the bias `β` as a row, then the body's stored entry at `j = (z, r, u, f)` is
    the joint function at `i = (b, 32·s + r, u, f)`. -/
theorem point_entry (X : S8x256x512.Idx → EReal) (Y : S8x64x512.Idx → EReal) (W : S1024x1024.Idx → EReal) (β : S1024.Idx → EReal)
    (x0 : Vec Ideal S1x32x512 .f32) (x1 : Vec Ideal S1x64x512 .f32) (x2 x3 : Vec Ideal S512x1024 .bf16) (x4 : Vec Ideal S1x1024 .f32)
    (b s : Fin 8)
    (h0 : ∀ (r : Fin 32) (k : Fin 512), x0 (ix3 (0 : Fin 1) r k) = X (ix3 b (frame s r) k))
    (h1 : ∀ (u : Fin 64) (k : Fin 512), x1 (ix3 (0 : Fin 1) u k) = Y (ix3 b u k))
    (h2 : ∀ (k : Fin 512) (f : Fin 1024), x2 (ix2 k f) = W (ix2 (rowA k) f))
    (h3 : ∀ (k : Fin 512) (f : Fin 1024), x3 (ix2 k f) = W (ix2 (rowL k) f))
    (h4 : ∀ f : Fin 1024, x4 (ix2 (0 : Fin 1) f) = β (ix1 f))
    (j : S1x32x64x1024.Idx) (i : S8x256x64x1024.Idx)
    (hi0 : (i 0).val = b.val) (hi1 : (i 1).val = s.val * 32 + (j 1).val) (hi2 : (i 2).val = (j 2).val) (hi3 : (i 3).val = (j 3).val) :
    k0_pay1 (F := Ideal) x0 x1 x2 x3 x4 j = joint X Y W β i := by
  obtain ⟨z, r, u, f, rfl⟩ : ∃ (z : Fin 1) (r : Fin 32) (u : Fin 64) (f : Fin 1024), j = ix4 z r u f :=
    ⟨j 0, j 1, j 2, j 3, eq_ix4 j⟩
  have hi : i = ix4 b (frame s r) u f := funext fun a => Fin.ext (by
    match a with
    | ⟨0, _⟩ => exact hi0
    | ⟨1, _⟩ => exact hi1
    | ⟨2, _⟩ => exact hi2
    | ⟨3, _⟩ => exact hi3)
  rw [hi, pay_at, joint_ix4]
  simp only [h0, h1, h2, h3, h4]
  rfl

/-! ## What a point writes back, the cover, and the array after the run -/

theorem hz4 : (![0, 0, 0, 0] : Fin 4 → Nat) = fun _ => 0 := funext fun a => by fin_cases a <;> rfl
theorem hz3 : (![0, 0, 0] : Fin 3 → Nat) = fun _ => 0 := funext fun a => by fin_cases a <;> rfl
theorem hz2 : (![0, 0] : Fin 2 → Nat) = fun _ => 0 := funext fun a => by fin_cases a <;> rfl

/-- What point `t` writes back is block `t` of the joint function of the argument arrays. -/
theorem flushed_eq (c : Dev nD) (t : Fin cfg0.N) :
    (dats m 0 c).flushed 5 t = ((cfg0.win 5).blk t).view.read (Elt Ideal) (joint (m ((c : Thread nD τ).loc main_arg0)) (m ((c : Thread nD τ).loc main_arg1)) (m ((c : Thread nD τ).loc main_arg2)) (m ((c : Thread nD τ).loc main_arg3))) := by
  obtain ⟨-, -, -, -, -, -, -, -, -, -, -, -, hb, hs, e2, e3⟩ := idx_facts t
  rw [flushed5]
  unfold out0_5
  rw [View.canon_unit_zero hz4]
  simp only [View.ld_unit_zero (S := S1x32x512) hz3, View.ld_unit_zero (S := S1x64x512) hz3,
    View.ld_unit_zero (S := S512x1024) hz2, View.ld_unit_zero (S := S1x1024) hz2]
  funext j
  have hj0 : (j 0).val < 1 := (j 0).isLt
  refine point_entry (m ((c : Thread nD τ).loc main_arg0)) (m ((c : Thread nD τ).loc main_arg1)) (m ((c : Thread nD τ).loc main_arg2)) (m ((c : Thread nD τ).loc main_arg3))
    (iblk m c 0 t) (iblk m c 1 t) (iblk m c 2 t) (iblk m c 3 t) (iblk m c 4 t)
    ⟨win0_5.index t (0 : Fin 4), by omega⟩ ⟨win0_5.index t (1 : Fin 4), by omega⟩
    (fun r k => audio_blk m c t _ _ ?_ ?_ ?_) (fun u k => label_blk m c t _ _ ?_ ?_ ?_)
    (fun k f => upper_blk m c t k f) (fun k f => lower_blk m c t k f) (fun f => bias_blk m c t f)
    j (((cfg0.win 5).blk t).view.emb j) ?_ ?_ ?_ ?_
  · show win0_5.index t (0 : Fin 4) = win0_5.index t (0 : Fin 4) + 0; omega
  · rfl
  · rfl
  · show win0_5.index t (0 : Fin 4) = win0_5.index t (0 : Fin 4) + 0; omega
  · rfl
  · rfl
  · show win0_5.index t (0 : Fin 4) * 1 + 1 * (j 0).val = win0_5.index t (0 : Fin 4); omega
  · show win0_5.index t (1 : Fin 4) * 32 + 1 * (j 1).val = win0_5.index t (1 : Fin 4) * 32 + (j 1).val; omega
  · show win0_5.index t (2 : Fin 4) * 64 + 1 * (j 2).val = (j 2).val; omega
  · show win0_5.index t (3 : Fin 4) * 1024 + 1 * (j 3).val = (j 3).val; omega

/-- An index of the result array is in point `t`'s block iff each coordinate is in the block's range on its axis. -/
theorem mem_blk (t : Fin cfg0.N) (i : S8x256x64x1024.Idx) :
    i ∈ ((cfg0.win 5).blk t).view.set ↔ ∀ a : Fin 4, win0_5.index t a * S1x32x64x1024.size a ≤ (i a).val
      ∧ (i a).val < win0_5.index t a * S1x32x64x1024.size a + S1x32x64x1024.size a := by
  show i ∈ ((View.whole main_v5).slice (win0_5.rect t)).set ↔ _
  rw [View.set_slice_whole, Rect.mem_set_unit]
  exact Iff.rfl

/-- The 64 result blocks tile the result array: the entry at (b, t', u, f) lies in the block of the point (b, t' / 32). -/
theorem cover (i : S8x256x64x1024.Idx) :
    ∃ t : Fin cfg0.N, (cfg0.win 5).flush t = true ∧ i ∈ ((cfg0.win 5).blk t).view.set := by
  have hi0 : (i 0).val < 8 := (i 0).isLt
  have hi1 : (i 1).val < 256 := (i 1).isLt
  have hi2 : (i 2).val < 64 := (i 2).isLt
  have hi3 : (i 3).val < 1024 := (i 3).isLt
  obtain ⟨t, ht⟩ := idx_onto ⟨(i 0).val, by omega⟩ ⟨(i 1).val / 32, by omega⟩
  have q0 : win0_5.index t (0 : Fin 4) = (i 0).val := congrFun ht 0
  have q1 : win0_5.index t (1 : Fin 4) = (i 1).val / 32 := congrFun ht 1
  have q2 : win0_5.index t (2 : Fin 4) = 0 := congrFun ht 2
  have q3 : win0_5.index t (3 : Fin 4) = 0 := congrFun ht 3
  refine ⟨t, flush0_5 t, ?_⟩
  rw [mem_blk]
  intro a
  match a with
  | ⟨0, _⟩ => show win0_5.index t (0 : Fin 4) * 1 ≤ (i 0).val ∧ (i 0).val < win0_5.index t (0 : Fin 4) * 1 + 1; omega
  | ⟨1, _⟩ => show win0_5.index t (1 : Fin 4) * 32 ≤ (i 1).val ∧ (i 1).val < win0_5.index t (1 : Fin 4) * 32 + 32; omega
  | ⟨2, _⟩ => show win0_5.index t (2 : Fin 4) * 64 ≤ (i 2).val ∧ (i 2).val < win0_5.index t (2 : Fin 4) * 64 + 64; omega
  | ⟨3, _⟩ => show win0_5.index t (3 : Fin 4) * 1024 ≤ (i 3).val ∧ (i 3).val < win0_5.index t (3 : Fin 4) * 1024 + 1024; omega

/-- The result array after the run is the joint function of the argument arrays. -/
theorem final (c : Dev nD) : (dats m 0 c).arrAt 5 cfg0.N = joint (m ((c : Thread nD τ).loc main_arg0)) (m ((c : Thread nD τ).loc main_arg1)) (m ((c : Thread nD τ).loc main_arg2)) (m ((c : Thread nD τ).loc main_arg3)) :=
  (dats m 0 c).arrAt_eq_of_cover 5 (joint (m ((c : Thread nD τ).loc main_arg0)) (m ((c : Thread nD τ).loc main_arg1)) (m ((c : Thread nD τ).loc main_arg2)) (m ((c : Thread nD τ).loc main_arg3))) (fun t _ => flushed_eq m c t) cover

/-- The kernel's run, read: the result array at the joint function of the arguments, the arguments unchanged. -/
theorem run : θ_run defs (onTc (τ := τ) (main (F := Ideal))) ⟨m, fun _ => 0, ρ⟩ fun r => ∀ c : Dev nD,
      r.2.mem ((c : Thread nD τ).loc main_v5) = joint (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (run_blocks m ρ)

end Cert.KernelIdeal.Hand

end
-- ==== Proof.RefJoint.lean ====
/-
  The reference's result, read index by index, is the joint function of the specification.

  The reference slices the weight into its upper and lower 512 rows, contracts the audio array against the upper half
  and the label array against the lower half over the feature axis, spreads the audio projection along the label axis
  and the label projection along the frame axis, adds the two, and adds the bias spread over all three leading axes:
  at (b, t, u, f) it is  (audio projection + label projection) + bias,  which is the specification's
  audio projection + (label projection + bias)  by associativity of addition.
-/
import proofs.«171825_j11003706212671_2_alg».proof.Proof.Gen.ReferenceIdeal.Read
import proofs.«171825_j11003706212671_2_alg».proof.Proof.JointSpec

noncomputable section

namespace Cert.ReferenceIdeal.RefValue

open Cert.ReferenceIdeal Cert.ReferenceIdeal.Read Idealize.ShloMosaic Idealize.ShloMosaic.ValueIdx Cert.Joint

/-- The reference's result at (b, t, u, f). -/
theorem ref_at (x0 : (⟨S8x256x512, .f32⟩ : BufTy).Contents (Elt Ideal)) (x1 : (⟨S8x64x512, .f32⟩ : BufTy).Contents (Elt Ideal))
    (x2 : (⟨S1024x1024, .f32⟩ : BufTy).Contents (Elt Ideal)) (x3 : (⟨S1024, .f32⟩ : BufTy).Contents (Elt Ideal))
    (b : Fin 8) (t : Fin 256) (u : Fin 64) (f : Fin 1024) :
    val_main_v11 (F := Ideal) x0 x1 x2 x3 (ix4 b t u f) = jointAt x0 x1 x2 x3 b t u f := by
  -- the audio side: which entries of the audio array and of the weight the k-th product reads
  have ea : ∀ k : Fin 512, lidx_main_v2 (idx_main_v4 (idx_main_v6 (ix4 b t u f))) k = ix3 b t k := fun k =>
    funext fun a => Fin.ext (by match a with | ⟨0, _⟩ => rfl | ⟨1, _⟩ => rfl | ⟨2, _⟩ => rfl)
  have ewa : ∀ k : Fin 512, idx_main_v0 (ridx_main_v2 (idx_main_v4 (idx_main_v6 (ix4 b t u f))) k) = ix2 (rowA k) f := fun k =>
    funext fun a => Fin.ext (by match a with | ⟨0, _⟩ => rfl | ⟨1, _⟩ => rfl)
  -- the label side
  have el : ∀ k : Fin 512, lidx_main_v3 (idx_main_v5 (idx_main_v7 (ix4 b t u f))) k = ix3 b u k := fun k =>
    funext fun a => Fin.ext (by match a with | ⟨0, _⟩ => rfl | ⟨1, _⟩ => rfl | ⟨2, _⟩ => rfl)
  have ewl : ∀ k : Fin 512, idx_main_v1 (ridx_main_v3 (idx_main_v5 (idx_main_v7 (ix4 b t u f))) k) = ix2 (rowL k) f := fun k =>
    funext fun a => Fin.ext (by match a with | ⟨0, _⟩ => rfl | ⟨1, _⟩ => rfl)
  -- the bias
  have eb : idx_main_v9 (idx_main_v10 (ix4 b t u f)) = ix1 f :=
    funext fun a => Fin.ext (by match a with | ⟨0, _⟩ => rfl)
  rw [val_main_v11_apply, val_main_v8_apply, val_main_v6_apply, val_main_v4_apply, val_main_v2_apply,
    val_main_v7_apply, val_main_v5_apply, val_main_v3_apply, val_main_v10_apply, val_main_v9_apply]
  simp only [val_main_v0_apply, val_main_v1_apply, ea, ewa, el, ewl, eb]
  exact jointAt_regroup x0 x1 x2 x3 b t u f

/-- The reference's result array is the joint function of its arguments. -/
theorem ref_eq (x0 : (⟨S8x256x512, .f32⟩ : BufTy).Contents (Elt Ideal)) (x1 : (⟨S8x64x512, .f32⟩ : BufTy).Contents (Elt Ideal))
    (x2 : (⟨S1024x1024, .f32⟩ : BufTy).Contents (Elt Ideal)) (x3 : (⟨S1024, .f32⟩ : BufTy).Contents (Elt Ideal)) :
    val_main_v11 (F := Ideal) x0 x1 x2 x3 = joint x0 x1 x2 x3 := by
  funext i
  obtain ⟨b, t, u, f, rfl⟩ : ∃ (b : Fin 8) (t : Fin 256) (u : Fin 64) (f : Fin 1024), i = ix4 b t u f :=
    ⟨i 0, i 1, i 2, i 3, eq_ix4 i⟩
  exact ref_at x0 x1 x2 x3 b t u f

end Cert.ReferenceIdeal.RefValue

end
-- ==== Proof.lean ====
/-
  The joint network: a fused kernel against its einsum reference, equal entry by entry on the extended reals.

  Both programs compute, at (b, t, u, f),

      (∑ k < 512, audio[b, t, k] · W[k, f])   and   (∑ k < 512, label[b, u, k] · W[512 + k, f])   and   bias[f],

  and add the three.  The kernel, at each of its 8 × 8 grid points (one batch, 32 frames), multiplies a block of audio rows
  by the upper half of the weight and the batch's label rows by the lower half, adds the bias to the label product, spreads
  the two products over the (frame, label) grid and adds them: audio + (label + bias).  The reference contracts the whole
  arrays, spreads and adds the two projections, and adds the bias last: (audio + label) + bias.  The sums over k are the
  same sums term by term (a change of float format is the identity on extended reals, and a matrix product into a zero
  accumulator is the plain sum), so the two results differ only in the grouping of three summands, and addition of
  extended reals is associative: no finiteness of the inputs is used.

  The three frame claims are the generated frame runs (the reference's is its generated run with the result dropped);
  the idealized kernel is the kernel's own text read on the extended reals, so there is nothing to preserve.
-/
import proofs.«171825_j11003706212671_2_alg».proof.Defs
import proofs.«171825_j11003706212671_2_alg».proof.Proof.Gen.Kernel
import proofs.«171825_j11003706212671_2_alg».proof.Proof.Gen.Kernel.Frame
import proofs.«171825_j11003706212671_2_alg».proof.Proof.Gen.KernelIdeal
import proofs.«171825_j11003706212671_2_alg».proof.Proof.Gen.KernelIdeal.Frame
import proofs.«171825_j11003706212671_2_alg».proof.Proof.Gen.ReferenceIdeal
import proofs.«171825_j11003706212671_2_alg».proof.Proof.Gen.Pre_finite_inputs
import proofs.«171825_j11003706212671_2_alg».proof.Proof.Gen.KernelIdeal.Value
import proofs.«171825_j11003706212671_2_alg».proof.Proof.Gen.ReferenceIdeal.Run
import proofs.«171825_j11003706212671_2_alg».proof.Proof.Gen.ReferenceIdeal.Read
import proofs.«171825_j11003706212671_2_alg».proof.Proof.KernelJoint
import proofs.«171825_j11003706212671_2_alg».proof.Proof.RefJoint
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Nothing was rewritten between the kernel and its reading on the extended reals. -/
theorem preserves : Cert.preserves_Kernel_KernelIdeal := trivial

/-- From memories agreeing on the four arguments both programs end with the result array at the joint function of
    the arguments: the kernel block by block, the reference by reading its operations at an index and regrouping
    the three summands. -/
theorem algebraic : Cert.algebraic_KernelIdeal_ReferenceIdeal := by
  intro m ρ m' ρ' _ hagree
  refine ⟨fun c => Cert.Joint.joint (m ((c : Thread Cert.KernelIdeal.nD Cert.KernelIdeal.τ).loc Cert.KernelIdeal.main_arg0))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)),
    Cert.KernelIdeal.Hand.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v11_eq _ _ _ _).trans (Cert.ReferenceIdeal.RefValue.ref_eq _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
